-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x64 : Shape := ⟨3, ![8, 65536, 64]⟩
abbrev S64x5x4 : Shape := ⟨3, ![64, 5, 4]⟩
abbrev S_ : Shape := ⟨0, ![]⟩

class Facts : Prop where
  bcast_S_S8x65536x64 : S_.BroadcastsInDim S8x65536x64 (![] : Fin 0 → Fin S8x65536x64.rank)
  reducesTo_S8x65536x64_S_d0_1_2 : S8x65536x64.ReducesTo [0, 1, 2] S_
  h_S_ : 0 < S_.numel
  bcast_S_S64x5x4 : S_.BroadcastsInDim S64x5x4 (![] : Fin 0 → Fin S64x5x4.rank)
  reducesTo_S64x5x4_S_d0_1_2 : S64x5x4.ReducesTo [0, 1, 2] S_

variable [Facts]

def fn {F : FTy → Type} [FloatOps F] (main_arg0 : FVec F S8x65536x64 .f32) (main_arg1 : FVec F S64x5x4 .f32) : IVec S_ 1 :=
  let main_v0 : FVec F S8x65536x64 .f32 := Host.absf main_arg0
  let main_cst : FVec F S_ .f32 := constant S_ .f32 0x7F800000#32
  let main_v1 : FVec F S8x65536x64 .f32 := broadcastInDim S8x65536x64 ![] bcast_S_S8x65536x64 main_cst
  let main_v2 : IVec S8x65536x64 1 := cmpf .olt main_v0 main_v1
  let main_c : IVec S_ 1 := constantI S_ 1 1#1
  let main_v3 : IVec S_ 1 := (fun x v => Host.reduce IntOp.andi x v reducesTo_S8x65536x64_S_d0_1_2 h_S_) main_v2 main_c
  let main_v4 : FVec F S64x5x4 .f32 := Host.absf main_arg1
  let main_cst_0 : FVec F S_ .f32 := constant S_ .f32 0x7F800000#32
  let main_v5 : FVec F S64x5x4 .f32 := broadcastInDim S64x5x4 ![] bcast_S_S64x5x4 main_cst_0
  let main_v6 : IVec S64x5x4 1 := cmpf .olt main_v4 main_v5
  let main_c_1 : IVec S_ 1 := constantI S_ 1 1#1
  let main_v7 : IVec S_ 1 := (fun x v => Host.reduce IntOp.andi x v reducesTo_S64x5x4_S_d0_1_2 h_S_) main_v6 main_c_1
  let main_v8 : IVec S_ 1 := andi main_v3 main_v7
  main_v8
-- ==== Kernel.lean ====
abbrev S8x65536x64 : Shape := ⟨3, ![8, 65536, 64]⟩
abbrev S64x5x4 : Shape := ⟨3, ![64, 5, 4]⟩
abbrev S8x64x65536 : Shape := ⟨3, ![8, 64, 65536]⟩
abbrev S524288x64 : Shape := ⟨2, ![524288, 64]⟩
abbrev S5x4x64 : Shape := ⟨3, ![5, 4, 64]⟩
abbrev S20x64 : Shape := ⟨2, ![20, 64]⟩
abbrev S4096x64 : Shape := ⟨2, ![4096, 64]⟩
abbrev S1x64 : Shape := ⟨2, ![1, 64]⟩
abbrev S64 : Shape := ⟨1, ![64]⟩

abbrev nBuf : Space → Nat
  | .hbm => 9
  | .vmem => 5
  | .smem => 0
  | _ => 0

abbrev bufTy : (tb : Table) → Fin (tcTables nBuf tb) → BufTy
  | .hbm, ⟨0, _⟩ => ⟨S8x65536x64, .f32⟩
  | .hbm, ⟨1, _⟩ => ⟨S64x5x4, .f32⟩
  | .hbm, ⟨2, _⟩ => ⟨S8x64x65536, .f32⟩
  | .hbm, ⟨3, _⟩ => ⟨S524288x64, .f32⟩
  | .hbm, ⟨4, _⟩ => ⟨S5x4x64, .f32⟩
  | .hbm, ⟨5, _⟩ => ⟨S20x64, .f32⟩
  | .hbm, ⟨6, _⟩ => ⟨S524288x64, .f32⟩
  | .hbm, ⟨7, _⟩ => ⟨S8x65536x64, .f32⟩
  | .hbm, ⟨8, _⟩ => ⟨S8x64x65536, .f32⟩
  | .local _ .vmem, ⟨0, _⟩ => ⟨S4096x64, .f32⟩
  | .local _ .vmem, ⟨1, _⟩ => ⟨S4096x64, .f32⟩
  | .local _ .vmem, ⟨2, _⟩ => ⟨S20x64, .f32⟩
  | .local _ .vmem, ⟨3, _⟩ => ⟨S4096x64, .f32⟩
  | .local _ .vmem, ⟨4, _⟩ => ⟨S4096x64, .f32⟩
  | _, _ => ⟨S8x65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8x65536x64_S8x64x65536_0_2_1 : S8x65536x64.Transposes [0, 2, 1] S8x64x65536
  shapeCasts_S8x64x65536_S524288x64 : S8x64x65536.ShapeCasts S524288x64
  transposes_S64x5x4_S5x4x64_1_2_0 : S64x5x4.Transposes [1, 2, 0] S5x4x64
  shapeCasts_S5x4x64_S20x64 : S5x4x64.ShapeCasts S20x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S20x64_S1x64_0_0 : ∀ a, (![0, 0] : Fin 2 → Nat) a + S1x64.size a ≤ S20x64.size a
  h_S1x64 : 0 < S1x64.numel
  shapeCasts_S1x64_S64 : S1x64.ShapeCasts S64
  shapeCasts_S64_S1x64 : S64.ShapeCasts S1x64
  inb_S20x64_S1x64_1_0 : ∀ a, (![1, 0] : Fin 2 → Nat) a + S1x64.size a ≤ S20x64.size a
  inb_S20x64_S1x64_2_0 : ∀ a, (![2, 0] : Fin 2 → Nat) a + S1x64.size a ≤ S20x64.size a
  inb_S20x64_S1x64_3_0 : ∀ a, (![3, 0] : Fin 2 → Nat) a + S1x64.size a ≤ S20x64.size a
  broadcasts_S1x64_S4096x64 : S1x64.Broadcasts S4096x64
  inb_S20x64_S1x64_4_0 : ∀ a, (![4, 0] : Fin 2 → Nat) a + S1x64.size a ≤ S20x64.size a
  inb_S20x64_S1x64_5_0 : ∀ a, (![5, 0] : Fin 2 → Nat) a + S1x64.size a ≤ S20x64.size a
  inb_S20x64_S1x64_6_0 : ∀ a, (![6, 0] : Fin 2 → Nat) a + S1x64.size a ≤ S20x64.size a
  inb_S20x64_S1x64_7_0 : ∀ a, (![7, 0] : Fin 2 → Nat) a + S1x64.size a ≤ S20x64.size a
  inb_S20x64_S1x64_8_0 : ∀ a, (![8, 0] : Fin 2 → Nat) a + S1x64.size a ≤ S20x64.size a
  inb_S20x64_S1x64_9_0 : ∀ a, (![9, 0] : Fin 2 → Nat) a + S1x64.size a ≤ S20x64.size a
  inb_S20x64_S1x64_10_0 : ∀ a, (![10, 0] : Fin 2 → Nat) a + S1x64.size a ≤ S20x64.size a
  inb_S20x64_S1x64_11_0 : ∀ a, (![11, 0] : Fin 2 → Nat) a + S1x64.size a ≤ S20x64.size a
  inb_S20x64_S1x64_12_0 : ∀ a, (![12, 0] : Fin 2 → Nat) a + S1x64.size a ≤ S20x64.size a
  inb_S20x64_S1x64_13_0 : ∀ a, (![13, 0] : Fin 2 → Nat) a + S1x64.size a ≤ S20x64.size a
  inb_S20x64_S1x64_14_0 : ∀ a, (![14, 0] : Fin 2 → Nat) a + S1x64.size a ≤ S20x64.size a
  inb_S20x64_S1x64_15_0 : ∀ a, (![15, 0] : Fin 2 → Nat) a + S1x64.size a ≤ S20x64.size a
  inb_S20x64_S1x64_16_0 : ∀ a, (![16, 0] : Fin 2 → Nat) a + S1x64.size a ≤ S20x64.size a
  inb_S20x64_S1x64_17_0 : ∀ a, (![17, 0] : Fin 2 → Nat) a + S1x64.size a ≤ S20x64.size a
  inb_S20x64_S1x64_18_0 : ∀ a, (![18, 0] : Fin 2 → Nat) a + S1x64.size a ≤ S20x64.size a
  inb_S20x64_S1x64_19_0 : ∀ a, (![19, 0] : Fin 2 → Nat) a + S1x64.size a ≤ S20x64.size a
  shapeCasts_S524288x64_S8x65536x64 : S524288x64.ShapeCasts S8x65536x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x64.size a ≤ S20x64.size a
  hwx0_1 : ∀ i : grid0.Coords, EltTy.bits .f32 = 32 ∨ (Rect.block (s := S20x64) S20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S524288x64.size a
  hwx0_2 : ∀ i : grid0.Coords, EltTy.bits .f32 = 32 ∨ (Rect.block (s := S524288x64) S4096x64.size (cc0_transform_2 i) (hinb0_2 i)).WholeWords (EltTy.packing .f32)

variable [Facts₀]

abbrev win0_0 : Pipeline.Window sig grid0 :=
  Pipeline.Window.ofSpec (Memref.whole main_v1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S20x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x65536x64 : Shape := ⟨3, ![8, 65536, 64]⟩
abbrev S64x5x4 : Shape := ⟨3, ![64, 5, 4]⟩
abbrev S8x64x65536 : Shape := ⟨3, ![8, 64, 65536]⟩
abbrev S524288x64 : Shape := ⟨2, ![524288, 64]⟩
abbrev S_ : Shape := ⟨0, ![]⟩
abbrev S64 : Shape := ⟨1, ![64]⟩
abbrev S1x64 : Shape := ⟨2, ![1, 64]⟩
abbrev S524288x64x1 : Shape := ⟨3, ![524288, 64, 1]⟩
abbrev S524288x64x2 : Shape := ⟨3, ![524288, 64, 2]⟩
abbrev S524288x64x4 : Shape := ⟨3, ![524288, 64, 4]⟩

abbrev nBuf : Space → Nat
  | .hbm => 67
  | .vmem => 0
  | .smem => 0
  | _ => 0

abbrev bufTy : (tb : Table) → Fin (tcTables nBuf tb) → BufTy
  | .hbm, ⟨0, _⟩ => ⟨S8x65536x64, .f32⟩
  | .hbm, ⟨1, _⟩ => ⟨S64x5x4, .f32⟩
  | .hbm, ⟨2, _⟩ => ⟨S8x64x65536, .f32⟩
  | .hbm, ⟨3, _⟩ => ⟨S524288x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S524288x64, .f32⟩
  | .hbm, ⟨8, _⟩ => ⟨S524288x64, .f32⟩
  | .hbm, ⟨9, _⟩ => ⟨S_, .f32⟩
  | .hbm, ⟨10, _⟩ => ⟨S524288x64, .f32⟩
  | .hbm, ⟨11, _⟩ => ⟨S524288x64, .f32⟩
  | .hbm, ⟨12, _⟩ => ⟨S_, .f32⟩
  | .hbm, ⟨13, _⟩ => ⟨S524288x64, .f32⟩
  | .hbm, ⟨14, _⟩ => ⟨S524288x64, .f32⟩
  | .hbm, ⟨15, _⟩ => ⟨S524288x64, .f32⟩
  | .hbm, ⟨16, _⟩ => ⟨S524288x64, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S524288x64, .i32⟩
  | .hbm, ⟨21, _⟩ => ⟨S524288x64, .i32⟩
  | .hbm, ⟨22, _⟩ => ⟨S_, .i32⟩
  | .hbm, ⟨23, _⟩ => ⟨S524288x64, .i32⟩
  | .hbm, ⟨24, _⟩ => ⟨S524288x64, .i32⟩
  | .hbm, ⟨25, _⟩ => ⟨S524288x64, .f32⟩
  | .hbm, ⟨26, _⟩ => ⟨S_, .f32⟩
  | .hbm, ⟨27, _⟩ => ⟨S524288x64, .f32⟩
  | .hbm, ⟨28, _⟩ => ⟨S524288x64, .f32⟩
  | .hbm, ⟨29, _⟩ => ⟨S524288x64, .f32⟩
  | .hbm, ⟨30, _⟩ => ⟨S64, .i32⟩
  | .hbm, ⟨31, _⟩ => ⟨S1x64, .i32⟩
  | .hbm, ⟨32, _⟩ => ⟨S_, .i32⟩
  | .hbm, ⟨33, _⟩ => ⟨S1x64, .i32⟩
  | .hbm, ⟨34, _⟩ => ⟨S1x64, .i1⟩
  | .hbm, ⟨35, _⟩ => ⟨S_, .i32⟩
  | .hbm, ⟨36, _⟩ => ⟨S1x64, .i32⟩
  | .hbm, ⟨37, _⟩ => ⟨S1x64, .i32⟩
  | .hbm, ⟨38, _⟩ => ⟨S1x64, .i32⟩
  | .hbm, ⟨39, _⟩ => ⟨S_, .i32⟩
  | .hbm, ⟨40, _⟩ => ⟨S524288x64, .i32⟩
  | .hbm, ⟨41, _⟩ => ⟨S524288x64, .i1⟩
  | .hbm, ⟨42, _⟩ => ⟨S_, .i32⟩
  | .hbm, ⟨43, _⟩ => ⟨S524288x64, .i32⟩
  | .hbm, ⟨44, _⟩ => ⟨S524288x64, .i32⟩
  | .hbm, ⟨45, _⟩ => ⟨S524288x64, .i32⟩
  | .hbm, ⟨46, _⟩ => ⟨S524288x64, .i32⟩
  | .hbm, ⟨47, _⟩ => ⟨S524288x64x1, .i32⟩
  | .hbm, ⟨48, _⟩ => ⟨S524288x64x1, .i32⟩
  | .hbm, ⟨49, _⟩ => ⟨S524288x64x2, .i32⟩
  | .hbm, ⟨50, _⟩ => ⟨S524288x64x4, .f32⟩
  | .hbm, ⟨51, _⟩ => ⟨S524288x64x1, .f32⟩
  | .hbm, ⟨52, _⟩ => ⟨S524288x64, .f32⟩
  | .hbm, ⟨53, _⟩ => ⟨S524288x64, .f32⟩
  | .hbm, ⟨54, _⟩ => ⟨S524288x64x1, .f32⟩
  | .hbm, ⟨55, _⟩ => ⟨S524288x64, .f32⟩
  | .hbm, ⟨56, _⟩ => ⟨S524288x64, .f32⟩
  | .hbm, ⟨57, _⟩ => ⟨S524288x64, .f32⟩
  | .hbm, ⟨58, _⟩ => ⟨S524288x64x1, .f32⟩
  | .hbm, ⟨59, _⟩ => ⟨S524288x64, .f32⟩
  | .hbm, ⟨60, _⟩ => ⟨S524288x64, .f32⟩
  | .hbm, ⟨61, _⟩ => ⟨S524288x64, .f32⟩
  | .hbm, ⟨62, _⟩ => ⟨S524288x64x1, .f32⟩
  | .hbm, ⟨63, _⟩ => ⟨S524288x64, .f32⟩
  | .hbm, ⟨64, _⟩ => ⟨S524288x64, .f32⟩
  | .hbm, ⟨65, _⟩ => ⟨S8x65536x64, .f32⟩
  | .hbm, ⟨66, _⟩ => ⟨S8x64x65536, .f32⟩
  | _, _ => ⟨S8x65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  transposes_S8x65536x64_S8x64x65536_0_2_1 : S8x65536x64.Transposes [0, 2, 1] S8x64x65536
  shapeCasts_S8x64x65536_S524288x64 : S8x64x65536.ShapeCasts S524288x64
  bcast_S_S524288x64 : S_.BroadcastsInDim S524288x64 (![] : Fin 0 → Fin S524288x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S524288x64_0_1 : S1x64.BroadcastsInDim S524288x64 (![0, 1] : Fin 2 → Fin S524288x64.rank)
  bcast_S524288x64_S524288x64x1_0_1 : S524288x64.BroadcastsInDim S524288x64x1 (![0, 1] : Fin 2 → Fin S524288x64x1.rank)
  concatenates_S524288x64x1_S524288x64x1_S524288x64x2_d2 : Shape.Concatenates [S524288x64x1, S524288x64x1] S524288x64x2 2
  slices_S524288x64x4_S524288x64x1_0_0_3 : S524288x64x4.Slices ![0, 0, 3] S524288x64x1
  shapeCasts_S524288x64x1_S524288x64 : S524288x64x1.ShapeCasts S524288x64
  slices_S524288x64x4_S524288x64x1_0_0_2 : S524288x64x4.Slices ![0, 0, 2] S524288x64x1
  slices_S524288x64x4_S524288x64x1_0_0_1 : S524288x64x4.Slices ![0, 0, 1] S524288x64x1
  slices_S524288x64x4_S524288x64x1_0_0_0 : S524288x64x4.Slices ![0, 0, 0] S524288x64x1
  shapeCasts_S524288x64_S8x65536x64 : S524288x64.ShapeCasts S8x65536x64
  gather_S64x5x4_S524288x64x2_S524288x64x4_2_01_n_n_01_2_114_wf : GatherDims.WF S64x5x4 S524288x64x2 S524288x64x4 [2] [0, 1] [] [0, 1] [] 2 ![1, 1, 4]

variable [Facts₀]

def gather_S64x5x4_S524288x64x2_S524288x64x4_2_01_n_n_01_2_114 : GatherDims S64x5x4 S524288x64x2 S524288x64x4 where
  offsetDims := [2]
  collapsedSliceDims := [0, 1]
  operandBatchingDims := []
  startIndicesBatchingDims := []
  startIndexMap := [0, 1]
  indexVectorDim := 2
  sliceSizes := ![1, 1, 4]
  wf := gather_S64x5x4_S524288x64x2_S524288x64x4_2_01_n_n_01_2_114_wf

class Facts : Prop extends Facts₀ where

variable [Facts]
-- ==== Proof.LibJoin.lean ====
/-
  Two arrays joined along an axis, named as a function of the two pieces.

  The library's `concatenate` takes the list of pieces together with a proof about that list's shapes, so the pieces
  cannot be rewritten in place: the proof's statement mentions the list. For a literal list of two pieces the shapes
  do not depend on the pieces' contents; `join2` is the same array with the proof stated over the two shapes alone,
  and a goal that reaches a two-piece join goes on under it.
-/
import Idealize.ShloMosaic.Lib.StableHlo.Run

namespace Idealize.ShloMosaic

/-- The join of two arrays along axis `a`: entry `j` comes from the first piece while `j a` is inside its extent,
    from the second after that. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A literal two-piece `concatenate` is that join. -/
theorem concatenate_two {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = join2 t a s₁ s₂ (show Shape.Concatenates [s₁, s₂] t a from h) x y := rfl

namespace StableHlo

/-- What a literal list of host operations leaves in one buffer, as ONE rewriting pass that also goes on under a
    two-piece join. -/
macro "after_results_join" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic
-- ==== Proof.LibTypedRef.lean ====
/-
  A typed reference's two transports cancel.

  A host function's buffers are typed references: contents pass into the buffer's own type and back out of it along the
  equation between the two types. Out after in, for one and the same reference, is the identity — whatever the
  reference, so nothing about its buffer's type has to be computed.
-/
import Idealize.ShloMosaic.Lib.StableHlo.Run

namespace Idealize.ShloMosaic.StableHlo.TRef

variable {sig : RefSig} {Val : EltTy → Type} {T : BufTy}

/-- Contents put into a typed reference's buffer type and taken back out are the contents. -/
theorem ofBuf_toBuf (x : TRef sig T) (v : T.Contents Val) : x.ofBuf (x.toBuf v) = v := by
  obtain ⟨r, h, h2, h3⟩ := x
  subst h
  rfl

/-- Contents taken out of a typed reference's buffer type and put back are the contents. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.Spec.lean ====
/-
  The function both programs compute, element by element.

  One input element x is clipped to [0, 1]; the interval of the uniform grid with five cells that holds it is
  k = min 4 (max 0 ⌊5·clip x⌋) (computed on 32-bit signed words, so k is one of the words 0, 1, 2, 3, 4); the local
  coordinate is t = clip x − k / 5; and the result is the cubic ((c₃·t + c₂)·t + c₁)·t + c₀ whose four coefficients are the
  ones the element's channel keeps for interval k.

  The two programs differ only in how they pick the coefficients: one evaluates the cubic of EVERY interval and keeps,
  by a chain of five selects on k = 0, …, k = 4 over an initial zero, the one whose interval is k (`byChain`); the other
  looks the four coefficients of interval k up in the table and evaluates one cubic (`byTable`). Because k is always one
  of the five words, exactly one select fires and the two agree (`byChain_eq_byTable`); no arithmetic law of the
  extended reals is used, so nothing here needs the inputs to be finite.
-/
import Idealize.ShloMosaic.PureOps.Ideal
import Idealize.ShloMosaic.Lib.ValueIdx

noncomputable section

namespace Cert.Spline

open Idealize.ShloMosaic Idealize.ShloMosaic.ValueIdx

/-- x clipped to the unit interval: min 1 (max 0 x). -/
def clip01 (x : Ideal .f32) : Ideal .f32 :=
  FloatOps.minimumf (Scalar.ofBits (F := Ideal) .f32 0x3F800000#32) (FloatOps.maximumf (Scalar.ofBits (F := Ideal) .f32 0x00000000#32) x)

/-- The interval of x as a signed 32-bit word: ⌊5 · clip x⌋ converted to an integer word and clamped into [0, 4]. -/
def cell (x : Ideal .f32) : BitVec 32 :=
  IntOp.minsi 4#32 (IntOp.maxsi 0#32
    (FloatOps.fptosi 32 (FloatOps.floor (FloatOps.mulf (clip01 x) (Scalar.ofBits (F := Ideal) .f32 0x40A00000#32)))))

/-- The local coordinate of x inside its interval: clip x − k / 5. -/
def frac (x : Ideal .f32) : Ideal .f32 :=
  FloatOps.subf (clip01 x) (FloatOps.divf (FloatOps.sitofp .f32 (cell x)) (Scalar.ofBits (F := Ideal) .f32 0x40A00000#32))

/-- Horner's evaluation of the cubic with coefficients c₀ … c₃ at t. -/
def cubic (c0 c1 c2 c3 t : Ideal .f32) : Ideal .f32 :=
  FloatOps.addf (FloatOps.mulf (FloatOps.addf (FloatOps.mulf (FloatOps.addf (FloatOps.mulf c3 t) c2) t) c1) t) c0

/-- A word clamped into [0, 4] as signed is one of the five words. -/
theorem clamp_cases (v : BitVec 32) :
    IntOp.minsi 4#32 (IntOp.maxsi 0#32 v) = 0#32 ∨ IntOp.minsi 4#32 (IntOp.maxsi 0#32 v) = 1#32
      ∨ IntOp.minsi 4#32 (IntOp.maxsi 0#32 v) = 2#32 ∨ IntOp.minsi 4#32 (IntOp.maxsi 0#32 v) = 3#32
      ∨ IntOp.minsi 4#32 (IntOp.maxsi 0#32 v) = 4#32 := by
  have key : ∀ m : BitVec 32, 0 ≤ m.toInt → m.toInt ≤ 4 →
      m = 0#32 ∨ m = 1#32 ∨ m = 2#32 ∨ m = 3#32 ∨ m = 4#32 := by
    intro m h0 h4
    have hm : m = BitVec.ofInt 32 m.toInt := (BitVec.ofInt_toInt).symm
    generalize m.toInt = z at hm h0 h4
    subst hm
    interval_cases z <;> decide
  apply key
  · unfold IntOp.minsi IntOp.maxsi
    simp only [BitVec.slt]
    split <;> split <;> simp_all <;> omega
  · unfold IntOp.minsi IntOp.maxsi
    simp only [BitVec.slt]
    split <;> split <;> simp_all <;> omega

/-- The interval word is one of 0, 1, 2, 3, 4. -/
theorem cell_cases (x : Ideal .f32) : cell x = 0#32 ∨ cell x = 1#32 ∨ cell x = 2#32 ∨ cell x = 3#32 ∨ cell x = 4#32 :=
  clamp_cases _

/-- A natural number clamped into [0, 4], as an index of the five intervals. -/
def clampFin (n : Nat) : Fin 5 := ⟨min n 4, Nat.lt_succ_of_le (Nat.min_le_right n 4)⟩

/-- The interval of x as an index of the five intervals (the word read signed, clamped into [0, 4]: it is in range
    already, and this is the form a table look-up that clamps its index meets). -/
def cellFin (x : Ideal .f32) : Fin 5 := clampFin (cell x).toInt.toNat

/-- Choosing by selects: every interval's cubic is formed from the 20-row coefficient table (row 4·g + j holds
    coefficient j of interval g) and the one of interval k survives five selects over the initial value z. -/
def byChain (k : BitVec 32) (t z : Ideal .f32) (C : Fin 20 → Ideal .f32) : Ideal .f32 :=
  Scalar.select (IntOp.cmpi .eq k 4#32) (cubic (C 16) (C 17) (C 18) (C 19) t)
    (Scalar.select (IntOp.cmpi .eq k 3#32) (cubic (C 12) (C 13) (C 14) (C 15) t)
      (Scalar.select (IntOp.cmpi .eq k 2#32) (cubic (C 8) (C 9) (C 10) (C 11) t)
        (Scalar.select (IntOp.cmpi .eq k 1#32) (cubic (C 4) (C 5) (C 6) (C 7) t)
          (Scalar.select (IntOp.cmpi .eq k 0#32) (cubic (C 0) (C 1) (C 2) (C 3) t) z))))

/-- Row r of the 20-row table is coefficient r % 4 of interval r / 4. -/
def rowOf (c : Fin 5 → Fin 4 → Ideal .f32) (r : Fin 20) : Ideal .f32 :=
  c ⟨r.val / 4, by have := r.isLt; omega⟩ ⟨r.val % 4, Nat.mod_lt _ (by decide)⟩

/-- THE AGREEMENT: the select chain on the interval word of x keeps exactly the cubic of x's interval, so it is the
    cubic with the coefficients looked up at that interval — whatever the initial value z. -/
theorem byChain_eq_cubic (x z : Ideal .f32) (c : Fin 5 → Fin 4 → Ideal .f32) :
    byChain (cell x) (frac x) z (rowOf c)
      = cubic (c (cellFin x) 0) (c (cellFin x) 1) (c (cellFin x) 2) (c (cellFin x) 3) (frac x) := by
  rcases cell_cases x with h | h | h | h | h
  · have hg : cellFin x = 0 := by unfold cellFin; rw [h]; rfl
    rw [hg]; unfold byChain; rw [h]; rfl
  · have hg : cellFin x = 1 := by unfold cellFin; rw [h]; rfl
    rw [hg]; unfold byChain; rw [h]; rfl
  · have hg : cellFin x = 2 := by unfold cellFin; rw [h]; rfl
    rw [hg]; unfold byChain; rw [h]; rfl
  · have hg : cellFin x = 3 := by unfold cellFin; rw [h]; rfl
    rw [hg]; unfold byChain; rw [h]; rfl
  · have hg : cellFin x = 4 := by unfold cellFin; rw [h]; rfl
    rw [hg]; unfold byChain; rw [h]; rfl

/-- Python's wrap of a possibly negative index (k + 5 where k < 0) leaves the interval word alone: it is never
    negative. -/
theorem wrap_cell (x : Ideal .f32) :
    Scalar.select (IntOp.cmpi .slt (cell x) 0#32) (IntOp.addi (cell x) 5#32) (cell x) = cell x := by
  rcases cell_cases x with h | h | h | h | h <;> rw [h] <;> rfl

/-- The same wrap of a channel number d < 64 (d + 64 where d < 0) leaves it alone, and read back signed and clamped
    into [0, 63] it is d. -/
theorem wrap_channel : ∀ d : Fin 64,
    min (Scalar.select (IntOp.cmpi .slt (BitVec.ofNat 32 d.val) 0#32) (IntOp.addi (BitVec.ofNat 32 d.val) 64#32)
      (BitVec.ofNat 32 d.val)).toInt.toNat (64 - 1) = d.val := by
  decide

/-- THE SPECIFICATION over the flattened arrays: xp is the input laid out [524288, 64] (row, channel) and coef the
    coefficient table [64, 5, 4] (channel, interval, degree); element (r, d) is the cubic of channel d's coefficients at
    the interval of xp (r, d), evaluated at its local coordinate. -/
def G (xp : (⟨2, ![524288, 64]⟩ : Shape).Idx → Ideal .f32) (coef : (⟨3, ![64, 5, 4]⟩ : Shape).Idx → Ideal .f32) :
    (⟨2, ![524288, 64]⟩ : Shape).Idx → Ideal .f32 := fun i =>
  cubic (coef (ix3 (i 1) (cellFin (xp i)) (0 : Fin 4))) (coef (ix3 (i 1) (cellFin (xp i)) (1 : Fin 4)))
    (coef (ix3 (i 1) (cellFin (xp i)) (2 : Fin 4))) (coef (ix3 (i 1) (cellFin (xp i)) (3 : Fin 4))) (frac (xp i))

end Cert.Spline

end
-- ==== Proof.LibGatherPair.lean ====
/-
  A table look-up by a pair of indices, read at an element.

  `table[rows, cols]` for a table of shape [A, B, C] and two integer arrays of shape [M, N] lowers to a gather whose start
  indices are the two arrays laid side by side, [M, N, 2]; the two leading axes of the table are collapsed, the third
  is kept whole (slice sizes 1, 1, C). Element (r, d, j) of the result is the table at
  (rows (r, d), cols (r, d), j), each start index read as a signed integer and clamped into its axis.
-/
import Idealize.ShloMosaic.PureOps.Ideal
import Idealize.ShloMosaic.Lib.ValueIdx

noncomputable section

namespace Cert.LibGatherPair

open Idealize.ShloMosaic Idealize.ShloMosaic.ValueIdx

variable {α : Type}

/-- The dimension numbers of that gather for a table [A, B, C], start indices [M, N, 2] and result [M, N, C]. -/
abbrev pairDims (A B C M N : Nat)
    (wf : GatherDims.WF ⟨3, ![A, B, C]⟩ ⟨3, ![M, N, 2]⟩ ⟨3, ![M, N, C]⟩ [2] [0, 1] [] [0, 1] [] 2 ![1, 1, C]) :
    GatherDims ⟨3, ![A, B, C]⟩ ⟨3, ![M, N, 2]⟩ ⟨3, ![M, N, C]⟩ where
  offsetDims := [2]
  collapsedSliceDims := [0, 1]
  operandBatchingDims := []
  startIndicesBatchingDims := []
  startIndexMap := [0, 1]
  indexVectorDim := 2
  sliceSizes := ![1, 1, C]
  wf := wf

/-- THE LOOK-UP READ AT (r, d, j): the table at the two start indices of (r, d), read signed and clamped into
    [0, A − 1] and [0, B − 1], and at j on the kept axis. -/
theorem gather_pair_apply {A B C M N w : Nat} (hA : 0 < A) (hB : 0 < B)
    (wf : GatherDims.WF ⟨3, ![A, B, C]⟩ ⟨3, ![M, N, 2]⟩ ⟨3, ![M, N, C]⟩ [2] [0, 1] [] [0, 1] [] 2 ![1, 1, C])
    (x : (⟨3, ![A, B, C]⟩ : Shape).Idx → α) (idx : IVec ⟨3, ![M, N, 2]⟩ w) (r : Fin M) (d : Fin N) (j : Fin C) :
    Host.gather (pairDims A B C M N wf) x idx (ix3 r d j)
      = x (ix3 (⟨min (idx (ix3 r d (0 : Fin 2))).toInt.toNat (A - 1), by omega⟩ : Fin A)
            (⟨min (idx (ix3 r d (1 : Fin 2))).toInt.toNat (B - 1), by omega⟩ : Fin B) j) := by
  unfold Host.gather
  congr 1
  funext a
  refine Fin.ext ?_
  match a with
  | ⟨0, _⟩ =>
    show (pairDims A B C M N wf).start (ix3 r d j) idx 0 + (pairDims A B C M N wf).batchCoord (ix3 r d j) 0
      + (pairDims A B C M N wf).offCoord (ix3 r d j) 0 = _
    rw [GatherDims.batchCoord_eq_zero _ _ _ List.not_mem_nil,
      GatherDims.offCoord_eq_zero _ _ _ (fun h => ((GatherDims.mem_sKept _ _).mp h).1 (show (0 : Fin 3) ∈ ([0, 1] : List (Fin 3)) from by decide))]
    simp only [Nat.add_zero]
    unfold GatherDims.start
    rw [dif_pos (show (0 : Fin 3) ∈ ([0, 1] : List (Fin 3)) from by decide)]
    have hsi : (pairDims A B C M N wf).siIdx (ix3 r d j) ⟨List.idxOf (0 : Fin 3) (pairDims A B C M N wf).startIndexMap,
        List.idxOf_lt_length_iff.2 (show (0 : Fin 3) ∈ ([0, 1] : List (Fin 3)) from by decide)⟩ = ix3 r d (0 : Fin 2) := by
      funext b; refine Fin.ext ?_
      match b with
      | ⟨0, _⟩ => rfl
      | ⟨1, _⟩ => rfl
      | ⟨2, _⟩ => rfl
    rw [hsi]
    rfl
  | ⟨1, _⟩ =>
    show (pairDims A B C M N wf).start (ix3 r d j) idx 1 + (pairDims A B C M N wf).batchCoord (ix3 r d j) 1
      + (pairDims A B C M N wf).offCoord (ix3 r d j) 1 = _
    rw [GatherDims.batchCoord_eq_zero _ _ _ List.not_mem_nil,
      GatherDims.offCoord_eq_zero _ _ _ (fun h => ((GatherDims.mem_sKept _ _).mp h).1 (show (1 : Fin 3) ∈ ([0, 1] : List (Fin 3)) from by decide))]
    simp only [Nat.add_zero]
    unfold GatherDims.start
    rw [dif_pos (show (1 : Fin 3) ∈ ([0, 1] : List (Fin 3)) from by decide)]
    have hsi : (pairDims A B C M N wf).siIdx (ix3 r d j) ⟨List.idxOf (1 : Fin 3) (pairDims A B C M N wf).startIndexMap,
        List.idxOf_lt_length_iff.2 (show (1 : Fin 3) ∈ ([0, 1] : List (Fin 3)) from by decide)⟩ = ix3 r d (1 : Fin 2) := by
      funext b; refine Fin.ext ?_
      match b with
      | ⟨0, _⟩ => rfl
      | ⟨1, _⟩ => rfl
      | ⟨2, _⟩ => rfl
    rw [hsi]
    rfl
  | ⟨2, _⟩ =>
    show (pairDims A B C M N wf).start (ix3 r d j) idx 2 + (pairDims A B C M N wf).batchCoord (ix3 r d j) 2
      + (pairDims A B C M N wf).offCoord (ix3 r d j) 2 = _
    rw [GatherDims.batchCoord_eq_zero _ _ _ List.not_mem_nil]
    unfold GatherDims.start
    rw [dif_neg (show (2 : Fin 3) ∉ ([0, 1] : List (Fin 3)) from by decide)]
    unfold GatherDims.offCoord
    rw [dif_pos ((GatherDims.mem_sKept (pairDims A B C M N wf) 2).mpr ⟨show (2 : Fin 3) ∉ ([0, 1] : List (Fin 3)) from by decide, List.not_mem_nil⟩)]
    simp only [Nat.zero_add, Nat.add_zero]
    rfl

end Cert.LibGatherPair

end
-- ==== Proof.RefValue.lean ====
/-
  The reference, read element by element, is the specification.

  After the input is transposed and flattened to [524288, 64] the reference clips each element, finds its interval
  word k and its local coordinate t, looks the element's four coefficients up in the table by the pair
  (channel, k) — a gather whose two start indices are the channel number and k, each first wrapped the way a
  negative Python index is — and evaluates one cubic. Read at element (r, d): the channel start index is d itself (it
  is below 64 and not negative), the interval start index is k (one of 0 … 4), so the four coefficients are
  coef (d, k, ·) and the element is `Spline.G` there.
-/
import proofs.«133581_j11089605558325_2_alg».proof.Proof.RefReadP
import proofs.«133581_j11089605558325_2_alg».proof.Proof.Spec
import proofs.«133581_j11089605558325_2_alg».proof.Proof.LibGatherPair
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx Cert.Spline Cert.LibGatherPair

variable (x0 : (⟨S8x65536x64, .f32⟩ : BufTy).Contents (Elt Ideal)) (x1 : (⟨S64x5x4, .f32⟩ : BufTy).Contents (Elt Ideal))

/-- The clipped input at an element is the clip of the flattened input there. -/
theorem clipped_at (i : S524288x64.Idx) :
    val_main_v2 (F := Ideal) x0 i = clip01 (val_main_v1 (F := Ideal) x0 i) := by
  rw [val_main_v2_apply, val_main_call0_v4_apply, val_main_call0_v2_apply, val_main_call0_v1_apply]
  rfl

/-- The interval word at an element. -/
theorem cell_at (i : S524288x64.Idx) :
    val_main_v7 (F := Ideal) x0 i = cell (val_main_v1 (F := Ideal) x0 i) := by
  rw [val_main_v7_apply, val_main_call1_v4_apply, val_main_call1_v2_apply, val_main_call1_v1_apply, val_main_v6_apply,
    val_main_v5_apply, val_main_v4_apply, clipped_at, val_main_v3_apply]
  rfl

/-- The local coordinate at an element. -/
theorem frac_at (i : S524288x64.Idx) :
    val_main_v11 (F := Ideal) x0 i = frac (val_main_v1 (F := Ideal) x0 i) := by
  rw [val_main_v11_apply, clipped_at, val_main_v10_apply, val_main_v8_apply, cell_at, val_main_v9_apply]
  rfl

/-- The first start index of element (r, d): the channel number d as a word, wrapped. -/
theorem start0_at (r : Fin 524288) (d : Fin 64) :
    val_main_v27 (F := Ideal) x0 (ix3 r d (0 : Fin 2))
      = Scalar.select (IntOp.cmpi .slt (BitVec.ofNat 32 d.val) 0#32) (IntOp.addi (BitVec.ofNat 32 d.val) 64#32)
          (BitVec.ofNat 32 d.val) := by
  unfold val_main_v27
  refine (concatenate_pair_apply_left (t := S524288x64x2) (2 : Fin 3) _ _
    concatenates_S524288x64x1_S524288x64x1_S524288x64x2_d2 (ix3 r d (0 : Fin 2)) rfl (ix3 r d (0 : Fin 1))
    (fun b => by match b with | ⟨0, _⟩ => rfl | ⟨1, _⟩ => rfl | ⟨2, _⟩ => rfl)).trans ?_
  rw [val_main_v25_apply, val_main_v24_apply, val_main_v18_apply, val_main_v15_apply, val_main_v17_apply,
    val_main_v13_apply, val_main_v14_apply, val_main_v16_apply]
  rfl

/-- The second start index of element (r, d): the interval word of the element, wrapped — which leaves it alone. -/
theorem start1_at (r : Fin 524288) (d : Fin 64) :
    val_main_v27 (F := Ideal) x0 (ix3 r d (1 : Fin 2)) = cell (val_main_v1 (F := Ideal) x0 (ix2 r d)) := by
  unfold val_main_v27
  refine (concatenate_pair_apply_right (t := S524288x64x2) (2 : Fin 3) _ _
    concatenates_S524288x64x1_S524288x64x1_S524288x64x2_d2 (ix3 r d (1 : Fin 2)) rfl rfl (ix3 r d (0 : Fin 1))
    (fun b hb => by
      match b, hb with
      | ⟨0, _⟩, _ => rfl
      | ⟨1, _⟩, _ => rfl
      | ⟨2, _⟩, hb => exact absurd rfl hb) rfl).trans ?_
  have e : idx_main_v26 (ix3 r d (0 : Fin 1)) = ix2 r d := by
    funext a; match a with | ⟨0, _⟩ => rfl | ⟨1, _⟩ => rfl
  rw [val_main_v26_apply, val_main_v23_apply, val_main_v20_apply, val_main_v22_apply, val_main_v19_apply,
    val_main_v21_apply, e, cell_at]
  exact wrap_cell _

/-- The looked-up coefficients of element (r, d): the table at channel d and the element's interval. -/
theorem table_at (r : Fin 524288) (d : Fin 64) (j : Fin 4) :
    val_main_v28 (F := Ideal) x0 x1 (ix3 r d j)
      = x1 (ix3 d (cellFin (val_main_v1 (F := Ideal) x0 (ix2 r d))) j) := by
  unfold val_main_v28
  refine (gather_pair_apply (A := 64) (B := 5) (C := 4) (M := 524288) (N := 64) (by decide) (by decide)
    gather_S64x5x4_S524288x64x2_S524288x64x4_2_01_n_n_01_2_114_wf x1 (val_main_v27 (F := Ideal) x0) r d j).trans ?_
  congr 1
  funext a
  match a with
  | ⟨0, _⟩ =>
    refine Fin.ext ?_
    show min (val_main_v27 (F := Ideal) x0 (ix3 r d (0 : Fin 2))).toInt.toNat (64 - 1) = d.val
    rw [start0_at]
    exact wrap_channel d
  | ⟨1, _⟩ =>
    refine Fin.ext ?_
    show min (val_main_v27 (F := Ideal) x0 (ix3 r d (1 : Fin 2))).toInt.toNat (5 - 1) = _
    rw [start1_at]
    rfl
  | ⟨2, _⟩ => rfl

/-- Where the slice of degree j, flattened, reads the gather at element (r, d): at (r, d, j). -/
theorem slot3 (r : Fin 524288) (d : Fin 64) : idx_main_v29 (idx_main_v30 (ix2 r d)) = ix3 r d (3 : Fin 4) := by
  funext a; refine Fin.ext ?_
  have hr := r.isLt; have hd := d.isLt
  match a with
  | ⟨0, _⟩ => show (r.val * 64 + d.val) / 64 = r.val; omega
  | ⟨1, _⟩ => show (r.val * 64 + d.val) / 1 % 64 = d.val; omega
  | ⟨2, _⟩ => rfl
theorem slot2 (r : Fin 524288) (d : Fin 64) : idx_main_v32 (idx_main_v33 (ix2 r d)) = ix3 r d (2 : Fin 4) := by
  funext a; refine Fin.ext ?_
  have hr := r.isLt; have hd := d.isLt
  match a with
  | ⟨0, _⟩ => show (r.val * 64 + d.val) / 64 = r.val; omega
  | ⟨1, _⟩ => show (r.val * 64 + d.val) / 1 % 64 = d.val; omega
  | ⟨2, _⟩ => rfl
theorem slot1 (r : Fin 524288) (d : Fin 64) : idx_main_v36 (idx_main_v37 (ix2 r d)) = ix3 r d (1 : Fin 4) := by
  funext a; refine Fin.ext ?_
  have hr := r.isLt; have hd := d.isLt
  match a with
  | ⟨0, _⟩ => show (r.val * 64 + d.val) / 64 = r.val; omega
  | ⟨1, _⟩ => show (r.val * 64 + d.val) / 1 % 64 = d.val; omega
  | ⟨2, _⟩ => rfl
theorem slot0 (r : Fin 524288) (d : Fin 64) : idx_main_v40 (idx_main_v41 (ix2 r d)) = ix3 r d (0 : Fin 4) := by
  funext a; refine Fin.ext ?_
  have hr := r.isLt; have hd := d.isLt
  match a with
  | ⟨0, _⟩ => show (r.val * 64 + d.val) / 64 = r.val; omega
  | ⟨1, _⟩ => show (r.val * 64 + d.val) / 1 % 64 = d.val; omega
  | ⟨2, _⟩ => rfl

/-- THE REFERENCE IS THE SPECIFICATION: the flattened result, before it is laid back out, is `Spline.G` of the
    flattened input and the coefficient table. -/
theorem flat_eq : val_main_v42 (F := Ideal) x0 x1 = G (val_main_v1 (F := Ideal) x0) x1 := by
  funext i
  obtain ⟨r, d, rfl⟩ : ∃ (r : Fin 524288) (d : Fin 64), i = ix2 r d := ⟨i 0, i 1, eq_ix2 i⟩
  rw [val_main_v42_apply, val_main_v39_apply, val_main_v38_apply, val_main_v35_apply, val_main_v34_apply,
    val_main_v31_apply, frac_at, val_main_v30_apply, val_main_v29_apply, slot3, table_at,
    val_main_v33_apply, val_main_v32_apply, slot2, table_at, val_main_v37_apply, val_main_v36_apply, slot1, table_at,
    val_main_v41_apply, val_main_v40_apply, slot0, table_at]
  rfl

/-- The reference's result: the specification of the flattened input and the table, reshaped to [8, 65536, 64] and its
    last two axes swapped. -/
theorem result_eq :
    val_main_v44 (F := Ideal) x0 x1
      = transpose S8x64x65536 [0, 2, 1]
          (shapeCast S8x65536x64 (G (val_main_v1 (F := Ideal) x0) x1) shapeCasts_S524288x64_S8x65536x64)
          transposes_S8x65536x64_S8x64x65536_0_2_1 := by
  unfold val_main_v44 val_main_v43
  rw [flat_eq]

end Cert.ReferenceIdeal.RefValue

end
-- ==== Proof.KernelBlock.lean ====
/-
  What the kernel body leaves in its output block, element by element.

  At one grid point the body holds a [4096, 64] block of the flattened input and the whole relaid coefficient table
  [20, 64] (row 4·g + j, column d: coefficient j of interval g of channel d). It clips the block, finds every element's
  interval word and local coordinate, and then, interval by interval, loads the four rows of that interval,
  broadcasts each over the 4096 rows of the block, evaluates the cubic and selects it where the interval word equals
  the interval's number — a chain of five selects over zeros. So element (p, q) of the output block is the select
  chain `Spline.byChain` on the interval word of input element (p, q), over column q of the table.
-/
import proofs.«133581_j11089605558325_2_alg».proof.Proof.Gen.KernelIdeal.Frame
import proofs.«133581_j11089605558325_2_alg».proof.Proof.Spec
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.TcCoe
open Idealize.ShloMosaic.ValueIdx Cert.Spline

/-- Row k of the coefficient block, loaded as a one-row array and broadcast over the 4096 rows: at (p, q) it is the
    block's entry (k, q). -/
theorem row_fn (x1 : Vec Ideal S20x64 .f32) (k : Nat)
    (inb : ∀ a, (![k, 0] : Fin 2 → Nat) a + S1x64.size a ≤ S20x64.size a) :
    broadcastTo S4096x64 (View.ld x1 (Rect.unit (s := S20x64) ![k, 0] S1x64.size inb)) broadcasts_S1x64_S4096x64
      = fun y => x1 (ix2 (⟨k, (inb 0 : k + 1 ≤ 20)⟩ : Fin 20) (y 1)) := by
  funext y
  obtain ⟨p, q, rfl⟩ : ∃ (p : Fin 4096) (q : Fin 64), y = ix2 p q := ⟨y 0, y 1, eq_ix2 y⟩
  rw [broadcastTo_1b_ab_apply]
  show x1 _ = x1 _
  congr 1
  funext a; refine Fin.ext ?_
  match a with
  | ⟨0, _⟩ => show k + 1 * 0 = k; omega
  | ⟨1, _⟩ => show 0 + 1 * q.val = q.val; omega

/-- The interval words of a block, element by element. -/
theorem words_eq (L0 : Vec Ideal S4096x64 .f32) : k0_pay3 L0 = fun y => cell (L0 y) := by
  funext y
  simp only [k0_pay3, k0_pay2, shapeCast_self]
  rfl

/-- The local coordinates of a block, element by element. -/
theorem coords_eq (L0 : Vec Ideal S4096x64 .f32) : k0_pay4 L0 = fun y => frac (L0 y) := by
  funext y
  simp only [k0_pay4, k0_pay2, shapeCast_self, words_eq]
  rfl

/-- THE OUTPUT BLOCK AT (p, q): the body's one stored value, as a function of the input block L0 and the coefficient
    block x1, is the select chain on the interval word of L0 (p, q) over column q of x1, started from zero. (Each
    loaded row is first flattened to a vector and laid back out as one row: a cast there and back, the identity.) -/
theorem payload_at (L0 : Vec Ideal S4096x64 .f32) (x1 : Vec Ideal S20x64 .f32) (p : Fin 4096) (q : Fin 64) :
    k0_pay1 (k0_pay3 L0) (k0_pay4 L0) (k0_pay12 (k0_pay3 L0) (k0_pay4 L0) (k0_pay7 (k0_pay3 L0) (k0_pay4 L0) (k0_pay5 (F := Ideal)) (k0_pay6 L0 (View.ld x1 r0_1) (View.ld x1 r0_2) (View.ld x1 r0_3) (View.ld x1 r0_4)) 0#32 (View.ld x1 r0_5) (View.ld x1 r0_6) (View.ld x1 r0_7) (View.ld x1 r0_8)) (k0_pay8 (View.ld x1 r0_9)) (k0_pay9 (View.ld x1 r0_10)) (k0_pay10 (k0_pay4 L0) (View.ld x1 r0_12)) (k0_pay11 (View.ld x1 r0_11)) (View.ld x1 r0_13) (View.ld x1 r0_14) (View.ld x1 r0_15) (View.ld x1 r0_16)) (k0_pay13 (View.ld x1 r0_17)) (k0_pay14 (View.ld x1 r0_18)) (k0_pay15 (View.ld x1 r0_19)) (View.ld x1 r0_20) (ix2 p q)
      = byChain (cell (L0 (ix2 p q))) (frac (L0 (ix2 p q))) (Scalar.ofBits (F := Ideal) .f32 0x00000000#32)
          (fun k => x1 (ix2 k q)) := by
  simp only [k0_pay1, k0_pay5, k0_pay6, k0_pay7, k0_pay8, k0_pay9, k0_pay10, k0_pay11,
    k0_pay12, k0_pay13, k0_pay14, k0_pay15, shapeCast_shapeCast]
  rw [row_fn x1 0 inb_S20x64_S1x64_0_0,
    row_fn x1 1 inb_S20x64_S1x64_1_0,
    row_fn x1 2 inb_S20x64_S1x64_2_0,
    row_fn x1 3 inb_S20x64_S1x64_3_0,
    row_fn x1 4 inb_S20x64_S1x64_4_0,
    row_fn x1 5 inb_S20x64_S1x64_5_0,
    row_fn x1 6 inb_S20x64_S1x64_6_0,
    row_fn x1 7 inb_S20x64_S1x64_7_0,
    row_fn x1 8 inb_S20x64_S1x64_8_0,
    row_fn x1 9 inb_S20x64_S1x64_9_0,
    row_fn x1 10 inb_S20x64_S1x64_10_0,
    row_fn x1 11 inb_S20x64_S1x64_11_0,
    row_fn x1 12 inb_S20x64_S1x64_12_0,
    row_fn x1 13 inb_S20x64_S1x64_13_0,
    row_fn x1 14 inb_S20x64_S1x64_14_0,
    row_fn x1 15 inb_S20x64_S1x64_15_0,
    row_fn x1 16 inb_S20x64_S1x64_16_0,
    row_fn x1 17 inb_S20x64_S1x64_17_0,
    row_fn x1 18 inb_S20x64_S1x64_18_0,
    row_fn x1 19 inb_S20x64_S1x64_19_0]
  rw [words_eq, coords_eq]
  rfl

end Cert.KernelIdeal.Block

end
-- ==== Proof.KernelArray.lean ====
/-
  From the blocks to the array: what the kernel's output array holds after the run.

  The grid has 128 points; point t stages rows 4096·t … 4096·t + 4095 of the flattened input, the WHOLE relaid
  coefficient table (its block index is always zero), and writes back rows 4096·t … 4096·t + 4095 of the output. The
  relaid table [20, 64] is the coefficient table [64, 5, 4] transposed to [5, 4, 64] and flattened: its entry
  (4·g + j, d) is coef (d, g, j). So what point t writes back is block t of ONE function of the arrays the region
  finds — `Spline.G` of the flattened input and the coefficient table —, the 128 blocks tile the output, and the
  output array ends holding that function.
-/
import proofs.«133581_j11089605558325_2_alg».proof.Proof.KernelBlock
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arr

open Cert.KernelIdeal Cert.KernelIdeal.Gen Cert.KernelIdeal.Block Idealize.ShloMosaic Idealize.ShloMosaic.TcCoe
open Idealize.SL.Sem Idealize.ShloMosaic.ValueIdx Cert.Spline
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The flattened input as the region finds it: the input transposed to [8, 64, 65536] and flattened. -/
theorem flat_input (c : Dev nD) :
    (V m c main_v1 : S524288x64.Idx → Ideal .f32)
      = shapeCast S524288x64 (transpose S8x64x65536 [0, 2, 1] (m ((c : Thread nD τ).loc main_arg0))
          transposes_S8x65536x64_S8x64x65536_0_2_1) shapeCasts_S8x64x65536_S524288x64 := by
  show StableHlo.after hostOps0 (fun b => m (c, b)) (Proc.devRef .tc main_v1) = _
  after_results; rfl

/-- The relaid coefficient table as the region finds it: the table transposed to [5, 4, 64] and flattened. -/
theorem relaid (c : Dev nD) :
    (V m c main_v3 : S20x64.Idx → Ideal .f32)
      = shapeCast S20x64 (transpose S5x4x64 [1, 2, 0] (m ((c : Thread nD τ).loc main_arg1))
          transposes_S64x5x4_S5x4x64_1_2_0) shapeCasts_S5x4x64_S20x64 := by
  show StableHlo.after hostOps0 (fun b => m (c, b)) (Proc.devRef .tc main_v3) = _
  after_results; rfl

/-- Its entry (k, d) is coefficient k % 4 of interval k / 4 of channel d. -/
theorem relaid_at (c : Dev nD) (k : Fin 20) (d : Fin 64) :
    V m c main_v3 (ix2 k d)
      = m ((c : Thread nD τ).loc main_arg1) (ix3 d (⟨k.val / 4, by have := k.isLt; omega⟩ : Fin 5)
          (⟨k.val % 4, Nat.mod_lt _ (by decide)⟩ : Fin 4)) := by
  rw [relaid]
  have hk := k.isLt
  have hd := d.isLt
  refine (shapeCast_apply _ shapeCasts_S5x4x64_S20x64 (ix2 k d)
    (ix3 (⟨k.val / 4, by omega⟩ : Fin 5) (⟨k.val % 4, Nat.mod_lt _ (by decide)⟩ : Fin 4) d)
    (by rewrite [Shape.rowMajor_val_three, Shape.rowMajor_val_two]
        show (k.val / 4 * 4 + k.val % 4) * 64 + d.val = k.val * 64 + d.val
        omega)).trans ?_
  exact transpose_apply [1, 2, 0] _ transposes_S64x5x4_S5x4x64_1_2_0 _ _ (fun b => match b with
    | ⟨0, _⟩ => rfl
    | ⟨1, _⟩ => rfl
    | ⟨2, _⟩ => rfl)

/-- The printed index maps over the grid: the input's and the output's row block is the point's number, the table's
    block never moves, and nothing is cut along the channels. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `G` of the flattened input and the coefficient table. -/
theorem flushed_eq (c : Dev nD) (t : Fin cfg0.N) :
    (dats m 0 c).flushed 2 t
      = ((cfg0.win 2).blk t).view.read (Elt Ideal) (G (V m c main_v1) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S4096x64) hz]
  obtain ⟨e0, e1, e2, e3, e4, e5⟩ := idx_facts t
  funext y
  obtain ⟨p, q, rfl⟩ : ∃ (p : Fin 4096) (q : Fin 64), y = ix2 p q := ⟨y 0, y 1, eq_ix2 y⟩
  refine (payload_at (iblk m c 0 t) (iblk m c 1 t) p q).trans ?_
  have hp := p.isLt
  have hq := q.isLt
  have hx : iblk m c 0 t (ix2 p q) = V m c main_v1 (((cfg0.win 2).blk t).view.emb (ix2 p q)) := by
    show V m c main_v1 (((cfg0.win 0).blk t).view.emb (ix2 p q)) = _
    refine congrArg _ ?_
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 64 + 1 * q.val = win0_2.index t (1 : Fin 2) * 64 + 1 * q.val; omega
  have hc : (fun k : Fin 20 => iblk m c 1 t (ix2 k q))
      = rowOf (fun g j => m ((c : Thread nD τ).loc main_arg1) (ix3 q g j)) := by
    funext k
    have hk := k.isLt
    show V m c main_v3 (((cfg0.win 1).blk t).view.emb (ix2 k q)) = _
    have he : ((cfg0.win 1).blk t).view.emb (ix2 k q) = ix2 k q := by
      funext a; apply Fin.ext
      match a with
      | ⟨0, _⟩ => show win0_1.index t (0 : Fin 2) * 20 + 1 * k.val = k.val; omega
      | ⟨1, _⟩ => show win0_1.index t (1 : Fin 2) * 64 + 1 * q.val = q.val; omega
    rw [he, relaid_at]
    rfl
  rw [hx, hc, byChain_eq_cubic]
  show _ = G (V m c main_v1) (m ((c : Thread nD τ).loc main_arg1)) (((cfg0.win 2).blk t).view.emb (ix2 p q))
  have h1 : (((cfg0.win 2).blk t).view.emb (ix2 p q)) 1 = q :=
    Fin.ext (by show win0_2.index t (1 : Fin 2) * 64 + 1 * q.val = q.val; omega)
  unfold G
  rw [h1]

/-- An index of the output array is in point t's block iff each coordinate is in the block's range on its axis. -/
theorem mem_blk (t : Fin cfg0.N) (i : S524288x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v4).slice (win0_2.rect t)).set ↔ _
  rw [View.set_slice_whole, Rect.mem_set_unit]
  exact Iff.rfl

/-- The 128 blocks tile the output: row r is in the block of point r / 4096. -/
theorem cover (i : S524288x64.Idx) :
    ∃ t : Fin cfg0.N, (cfg0.win 2).flush t = true ∧ i ∈ ((cfg0.win 2).blk t).view.set := by
  have hi0 : (i 0).val < 524288 := (i 0).isLt
  have hi1 : (i 1).val < 64 := (i 1).isLt
  have hN : cfg0.N = 128 := N_0
  let t : Fin cfg0.N := ⟨(i 0).val / 4096, by rw [hN]; omega⟩
  obtain ⟨e0, e1, e2, e3, e4, e5⟩ := idx_facts t
  have e4' : win0_2.index t (0 : Fin 2) = (i 0).val / 4096 := e4
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 64 ≤ (i 1).val ∧ (i 1).val < win0_2.index t (1 : Fin 2) * 64 + 64; omega

/-- THE OUTPUT ARRAY after the run: `G` of the flattened input and the coefficient table. -/
theorem final (c : Dev nD) :
    (dats m 0 c).arrAt 2 cfg0.N = G (V m c main_v1) (m ((c : Thread nD τ).loc main_arg1)) :=
  (dats m 0 c).arrAt_eq_of_cover 2 (G (V m c main_v1) (m ((c : Thread nD τ).loc main_arg1)))
    (fun t _ => flushed_eq m c t) cover

end Cert.KernelIdeal.Arr

end
-- ==== Proof.KernelRun.lean ====
/-
  The kernel's run, with its result named.

  After the region two host operations lay the flattened output [524288, 64] back out: a reshape to [8, 65536, 64] and
  the transpose that swaps its last two axes. The generated frame run leaves the result buffer at those two operations
  applied to whatever the region left in its output array; with the array known (`Arr.final`) the result is the
  specification `Spline.G` laid out that way.
-/
import proofs.«133581_j11089605558325_2_alg».proof.Proof.KernelArray
import Idealize.ShloMosaic.Lib.StableHlo.Run

set_option maxRecDepth 16384

noncomputable section

namespace Cert.KernelIdeal.RunValue

open Cert.KernelIdeal Cert.KernelIdeal.Gen Cert.KernelIdeal.Arr Idealize.ShloMosaic Idealize.ShloMosaic.TcCoe
open Idealize.SL.Sem Idealize.ShloMosaic.ValueIdx Cert.Spline

variable (m : (ℓ : Loc nD τ sig) → Buf (Elt Ideal) ℓ) (ρ : Dev nD → PrngReg)

/-- A flattened array [524288, 64] laid back out as [8, 64, 65536]: reshaped to [8, 65536, 64], last two axes swapped. -/
def laidOut (y : S524288x64.Idx → Ideal .f32) : S8x64x65536.Idx → Ideal .f32 :=
  transpose S8x64x65536 [0, 2, 1] (shapeCast S8x65536x64 y shapeCasts_S524288x64_S8x65536x64)
    transposes_S8x65536x64_S8x64x65536_0_2_1

/-- What the operations after the region leave in the result buffer: the region's output array, laid out. -/
theorem tail_eq (c : Dev nD) :
    Pipeline.afterTail₀ cfgs (dats m) 0 (V0 m) [hostOps1] c main_v6 = laidOut ((dats m 0 c).arrAt 2 cfg0.N) := by
  unfold Pipeline.afterTail₀
  show StableHlo.after hostOps1 _ (Proc.devRef .tc main_v6) = _
  after_results
  refine Eq.trans ?_ (congrArg laidOut
    (Pipeline.withArrays_arr spec0 launch0.win.arr_inj c (V0 m c) (fun w => (dats m 0 c).arrAt w cfg0.N) 2))
  rfl

/-- THE KERNEL'S RUN, its result named: every weakly fair execution terminates with the result buffer at the
    specification of the flattened input and the coefficient table, laid out, and the arguments unchanged. -/
theorem run : θ_run defs (onTc (τ := τ) (main (F := Ideal))) ⟨m, fun _ => 0, ρ⟩ fun r => ∀ c : Dev nD,
      r.2.mem ((c : Thread nD τ).loc main_v6) = laidOut (G (V m c main_v1) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v6 (Pipeline.mem_restRefs_of main_v6 (by decide) (by decide))).trans
        ((tail_eq m c).trans (congrArg laidOut (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.lean ====
/-
  The five claims of this certificate, assembled.

  Both programs compute, for every element x of the input and its channel d, the cubic spline of channel d on a
  uniform grid of five intervals over [0, 1]: x is clipped, its interval k and local coordinate t are found, and
  ((c₃·t + c₂)·t + c₁)·t + c₀ is evaluated with the four coefficients coef (d, k, ·). Around that, both transpose and
  flatten the input to [524288, 64] and lay the result back out the same way. The kernel evaluates every interval's
  cubic and keeps one by five selects on k; the reference looks the coefficients up by a gather and evaluates one. They
  agree because k is always one of 0 … 4 (Proof/Spec.lean), with no arithmetic law of the extended reals involved, so
  the precondition is not used.

  The kernel's side: the body's output block element by element (Proof/KernelBlock.lean), the output array as one
  function of the arrays the region finds (Proof/KernelArray.lean), the run with the result named
  (Proof/KernelRun.lean). The reference's side: its run (Proof/RefRunP.lean over the stages of Proof/RefReadP.lean) and
  its result read element by element (Proof/RefValue.lean). The three frames are the generated frame proofs and the
  reference's run with its result dropped; nothing was rewritten when the kernel was idealized, so `preserves` is trivial.
-/
import proofs.«133581_j11089605558325_2_alg».proof.Defs
import proofs.«133581_j11089605558325_2_alg».proof.Proof.Gen.Kernel
import proofs.«133581_j11089605558325_2_alg».proof.Proof.Gen.Kernel.Skeleton
import proofs.«133581_j11089605558325_2_alg».proof.Proof.Gen.Kernel.Launch
import proofs.«133581_j11089605558325_2_alg».proof.Proof.Gen.Kernel.Points
import proofs.«133581_j11089605558325_2_alg».proof.Proof.Gen.Kernel.Frame
import proofs.«133581_j11089605558325_2_alg».proof.Proof.Gen.KernelIdeal
import proofs.«133581_j11089605558325_2_alg».proof.Proof.Gen.KernelIdeal.Skeleton
import proofs.«133581_j11089605558325_2_alg».proof.Proof.Gen.KernelIdeal.Launch
import proofs.«133581_j11089605558325_2_alg».proof.Proof.Gen.KernelIdeal.Points
import proofs.«133581_j11089605558325_2_alg».proof.Proof.Gen.KernelIdeal.Frame
import proofs.«133581_j11089605558325_2_alg».proof.Proof.Gen.ReferenceIdeal
import proofs.«133581_j11089605558325_2_alg».proof.Proof.Gen.Pre_finite_inputs
import proofs.«133581_j11089605558325_2_alg».proof.Proof.RefRunP
import proofs.«133581_j11089605558325_2_alg».proof.Proof.RefValue
import proofs.«133581_j11089605558325_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- The reference's result term, at argument arrays equal to the kernel's, is the kernel's result: both are the
    specification laid out, and the flattened input the region finds is the one the reference's first two operations
    compute. -/
theorem results_agree (m : (ℓ : Loc Cert.KernelIdeal.nD Cert.KernelIdeal.τ Cert.KernelIdeal.sig) → Buf (Elt Ideal) ℓ)
    (c : Dev Cert.KernelIdeal.nD)
    (a0 : (⟨Cert.ReferenceIdeal.S8x65536x64, .f32⟩ : BufTy).Contents (Elt Ideal))
    (a1 : (⟨Cert.ReferenceIdeal.S64x5x4, .f32⟩ : BufTy).Contents (Elt Ideal))
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1)) :
    Cert.ReferenceIdeal.ReadP.val_main_v44 (F := Ideal) a0 a1
      = Cert.KernelIdeal.RunValue.laidOut (Cert.Spline.G (Cert.KernelIdeal.Gen.V m c Cert.KernelIdeal.main_v1)
          (m ((c.tc : Thread Cert.KernelIdeal.nD Cert.KernelIdeal.τ).loc Cert.KernelIdeal.main_arg1))) := by
  subst h0 h1
  rw [Cert.ReferenceIdeal.RefValue.result_eq, Cert.KernelIdeal.Arr.flat_input]
  rfl

/-- Both runs end with the result buffer at the specification of the flattened input and the coefficient table, laid
    out: the kernel's by its run, the reference's by its run read element by element, the flattened inputs being one
    and the same function of the argument arrays, which agree. -/
theorem algebraic : Cert.algebraic_KernelIdeal_ReferenceIdeal := by
  intro m ρ m' ρ' _ hagree
  refine ⟨fun c => Cert.KernelIdeal.RunValue.laidOut (Cert.Spline.G (Cert.KernelIdeal.Gen.V m c Cert.KernelIdeal.main_v1)
      (m ((c.tc : Thread Cert.KernelIdeal.nD Cert.KernelIdeal.τ).loc Cert.KernelIdeal.main_arg1))),
    Cert.KernelIdeal.RunValue.run m ρ, ?_⟩
  exact (θ_run Cert.ReferenceIdeal.defs _ _).mono
    (fun _ h c => ⟨(h c).1.trans (results_agree m c _ _ (hagree c).1 (hagree c).2), (h c).2⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
